-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x3 .f32) (main_arg1 : IVec S2x1600000 32) (main_arg2 : IVec S100000 32) (main_arg3 : FVec F S3x64 .f32) (main_arg4 : FVec F S64 .f32) (main_arg5 : FVec F S64x128 .f32) (main_arg6 : FVec F S128 .f32) (main_arg7 : FVec F S128x2 .f32) (main_arg8 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x64 .f32 := Host.absf main_arg3
  let main_cst_0 : FVec F S_ .f32 := constant S_ .f32 0x7F800000#32
  let main_v5 : FVec F S3x64 .f32 := broadcastInDim S3x64 ![] bcast_S_S3x64 main_cst_0
  let main_v6 : IVec S3x64 1 := cmpf .olt main_v4 main_v5
  let main_c_1 : IVec S_ 1 := constantI S_ 1 1#1
  let main_v7 : IVec S_ 1 := (fun x v => Host.reduce IntOp.andi x v reducesTo_S3x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_v13 main_v16
-- ==== Kernel.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S2000x3 : Shape := ⟨2, ![2000, 3]⟩
abbrev S2000x64 : Shape := ⟨2, ![2000, 64]⟩
abbrev S1600000x64 : Shape := ⟨2, ![1600000, 64]⟩
abbrev S100000x1 : Shape := ⟨2, ![100000, 1]⟩
abbrev S1x64 : Shape := ⟨2, ![1, 64]⟩
abbrev S2000x1 : Shape := ⟨2, ![2000, 1]⟩
abbrev S100000x128 : Shape := ⟨2, ![100000, 128]⟩
abbrev S2000x128 : Shape := ⟨2, ![2000, 128]⟩
abbrev S1600000x128 : Shape := ⟨2, ![1600000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 101
  | .vmem => 32
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S100000, .i32⟩
  | .hbm, ⟨3, _⟩ => ⟨S3x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S100000x64, .f32⟩
  | .hbm, ⟨44, _⟩ => ⟨S1600000x1, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S100000x64, .f32⟩
  | .hbm, ⟨58, _⟩ => ⟨S1600000x1, .i32⟩
  | .hbm, ⟨59, _⟩ => ⟨S100000x64, .f32⟩
  | .hbm, ⟨60, _⟩ => ⟨S100000x1, .f32⟩
  | .hbm, ⟨61, _⟩ => ⟨S1x64, .f32⟩
  | .hbm, ⟨62, _⟩ => ⟨S100000x64, .f32⟩
  | .hbm, ⟨63, _⟩ => ⟨S100000x128, .f32⟩
  | .hbm, ⟨64, _⟩ => ⟨S1600000x1, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S1600000x128, .f32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x1, .f32⟩
  | .hbm, ⟨81, _⟩ => ⟨S1x128, .f32⟩
  | .hbm, ⟨82, _⟩ => ⟨S100000x128, .f32⟩
  | .hbm, ⟨83, _⟩ => ⟨S_, .f32⟩
  | .hbm, ⟨84, _⟩ => ⟨S512x128, .f32⟩
  | .hbm, ⟨85, _⟩ => ⟨S100000x1, .i32⟩
  | .hbm, ⟨86, _⟩ => ⟨S512x128, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S512, .f32⟩
  | .hbm, ⟨91, _⟩ => ⟨S100000x1, .i32⟩
  | .hbm, ⟨92, _⟩ => ⟨S512, .f32⟩
  | .hbm, ⟨93, _⟩ => ⟨S_, .f32⟩
  | .hbm, ⟨94, _⟩ => ⟨S512, .f32⟩
  | .hbm, ⟨95, _⟩ => ⟨S512, .f32⟩
  | .hbm, ⟨96, _⟩ => ⟨S512x1, .f32⟩
  | .hbm, ⟨97, _⟩ => ⟨S512x128, .f32⟩
  | .hbm, ⟨98, _⟩ => ⟨S512x128, .f32⟩
  | .hbm, ⟨99, _⟩ => ⟨S1x2, .f32⟩
  | .hbm, ⟨100, _⟩ => ⟨S512x2, .f32⟩
  | .local _ .vmem, ⟨0, _⟩ => ⟨S2000x3, .f32⟩
  | .local _ .vmem, ⟨1, _⟩ => ⟨S2000x3, .f32⟩
  | .local _ .vmem, ⟨2, _⟩ => ⟨S3x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S64x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S512x128, .f32⟩
  | .local _ .vmem, ⟨29, _⟩ => ⟨S128x2, .f32⟩
  | .local _ .vmem, ⟨30, _⟩ => ⟨S1x2, .f32⟩
  | .local _ .vmem, ⟨31, _⟩ => ⟨S512x2, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S2000x3_S2000x3_0_0 : ∀ a, (![0, 0] : Fin 2 → Nat) a + S2000x3.size a ≤ S2000x3.size a
  h_S2000x3 : 0 < S2000x3.numel
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S2000x1_S2000x64 : S2000x1.Broadcasts S2000x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x3_S3x64_S2000x64_1_0_0_1_n_n_wf : DotDims.WF S2000x3 S3x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x3.size a ≤ S100000x3.size a
  hwx0_0 : ∀ i : grid0.Coords, EltTy.bits .f32 = 32 ∨ (Rect.block (s := S100000x3) S2000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x64.size a ≤ S3x64.size a
  hwx0_1 : ∀ i : grid0.Coords, EltTy.bits .f32 = 32 ∨ (Rect.block (s := S3x64) S3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S100000x64.size a
  hwx1_4 : ∀ i : grid1.Coords, EltTy.bits .f32 = 32 ∨ (Rect.block (s := S100000x64) S2000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x128.size a ≤ S512x128.size a
  hwx4_0 : ∀ i : grid4.Coords, EltTy.bits .f32 = 32 ∨ (Rect.block (s := S512x128) S512x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x2.size a ≤ S128x2.size a
  hwx4_1 : ∀ i : grid4.Coords, EltTy.bits .f32 = 32 ∨ (Rect.block (s := S128x2) S128x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2.size a ≤ S1x2.size a
  hwx4_2 : ∀ i : grid4.Coords, EltTy.bits .f32 = 32 ∨ (Rect.block (s := S1x2) S1x2.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x2.size a ≤ S512x2.size a
  hwx4_3 : ∀ i : grid4.Coords, EltTy.bits .f32 = 32 ∨ (Rect.block (s := S512x2) S512x2.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x3_S3x64_S2000x64_1_0_0_1_n_n : DotDims S2000x3 S3x64 S2000x64 where
  lhsContracting := [1]
  rhsContracting := [0]
  lhsNonContracting := [0]
  rhsNonContracting := [1]
  lhsBatch := []
  rhsBatch := []
  wf := dot_S2000x3_S3x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v72) S512x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x2.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S512x2.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S100000 : Shape := ⟨1, ![100000]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S100000x128 : Shape := ⟨2, ![100000, 128]⟩
abbrev S1600000x128 : Shape := ⟨2, ![1600000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 137
  | .vmem => 0
  | .smem => 0
  | _ => 0

abbrev hbmTy0_0 (i : Nat) : BufTy := match i % 128 with
  | 0 => ⟨S100000x3, .f32⟩
  | 1 => ⟨S2x1600000, .i32⟩
  | 2 => ⟨S100000, .i32⟩
  | 3 => ⟨S3x64, .f32⟩
  | 4 => ⟨S64, .f32⟩
  | 5 => ⟨S64x128, .f32⟩
  | 6 => ⟨S128, .f32⟩
  | 7 => ⟨S128x2, .f32⟩
  | 8 => ⟨S2, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S100000x64, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S1600000x1, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x64, .f32⟩
  | 53 => ⟨S1600000x64, .f32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S100000, .f32⟩
  | 60 => ⟨S100000x1, .f32⟩
  | 61 => ⟨S100000x64, .f32⟩
  | 62 => ⟨S100000x64, .f32⟩
  | 63 => ⟨S100000x64, .f32⟩
  | 64 => ⟨S1x64, .f32⟩
  | 65 => ⟨S100000x64, .f32⟩
  | 66 => ⟨S100000x64, .f32⟩
  | 67 => ⟨S_, .f32⟩
  | 68 => ⟨S100000x64, .f32⟩
  | 69 => ⟨S100000x64, .f32⟩
  | 70 => ⟨S100000x128, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S1600000, .f32⟩
  | 90 => ⟨S1600000x1, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x128, .f32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S100000, .f32⟩
  | 107 => ⟨S100000x1, .f32⟩
  | 108 => ⟨S100000x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S_, .f32⟩
  | 115 => ⟨S100000x128, .f32⟩
  | 116 => ⟨S100000x128, .f32⟩
  | 117 => ⟨S_, .f32⟩
  | 118 => ⟨S512x128, .f32⟩
  | 119 => ⟨S100000x1, .i32⟩
  | 120 => ⟨S512x128, .f32⟩
  | 121 => ⟨S_, .f32⟩
  | 122 => ⟨S100000, .f32⟩
  | 123 => ⟨S_, .f32⟩
  | 124 => ⟨S512, .f32⟩
  | 125 => ⟨S100000x1, .i32⟩
  | 126 => ⟨S512, .f32⟩
  | 127 => ⟨S_, .f32⟩
  | _ => ⟨S100000x3, .f32⟩

abbrev hbmTy0_1 (i : Nat) : BufTy := match i % 128 with
  | 0 => ⟨S512, .f32⟩
  | 1 => ⟨S512, .f32⟩
  | 2 => ⟨S512x1, .f32⟩
  | 3 => ⟨S512x128, .f32⟩
  | 4 => ⟨S512x128, .f32⟩
  | 5 => ⟨S512x2, .f32⟩
  | 6 => ⟨S1x2, .f32⟩
  | 7 => ⟨S512x2, .f32⟩
  | 8 => ⟨S512x2, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_12 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call1_cst : Ref sig .tc := ⟨.hbm, 114, rfl⟩
abbrev main_call1_v0 : Ref sig .tc := ⟨.hbm, 115, rfl⟩
abbrev main_v86 : Ref sig .tc := ⟨.hbm, 116, rfl⟩
abbrev main_cst_15 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S1600000x1_S1600000_n_0_0_1_wf : ScatterDims.WF S100000 S1600000x1 S1600000 [] [0] [0] 1
  dot_S100000x3_S3x64_S100000x64_1_0_0_1_n_n_wf : DotDims.WF S100000x3 S3x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x3_S3x64_S100000x64_1_0_0_1_n_n : DotDims S100000x3 S3x64 S100000x64 where
  lhsContracting := [1]
  rhsContracting := [0]
  lhsNonContracting := [0]
  rhsNonContracting := [1]
  lhsBatch := []
  rhsBatch := []
  wf := dot_S100000x3_S3x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KernelRun.lean ====
/- The idealized kernel's run with its result named. The program is five pipelined regions among stretches of host
   operations; the buffer contents at each boundary are the generated fold `Gen.W0 … Gen.W9` (a stretch applies its
   operations, a region replaces its arrays by what its write-backs leave). Every weakly fair execution terminates,
   and in the final state every unscoped buffer holds its `W9` contents: in particular the result buffer holds
   `W9` at the result, and each argument its launch contents. -/
import proofs.«127990_j25340307046788_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents of it, the arguments as launched. -/
theorem run_main : θ_run defs (onTc (τ := τ) (main (F := F))) ⟨m, fun _ => 0, ρ⟩ (fun r => ∀ c : Dev nD,
      r.2.mem ((c.tc : Thread nD τ).loc main_v74) = W9 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v74 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.RunValue

end
-- ==== Proof.LibMatProd.lean ====
/- Matrix products of the ideal float instance read at an entry, for any extents: a rows-by-columns product
   (contracting the left operand's columns with the right operand's rows) accumulated into the zero matrix, and
   the host's product of the same pattern, are both, at (p, q), the sum over t of left (p, t) · right (t, q). -/
import Idealize.ShloMosaic.PureOps.Ideal
import Idealize.ShloMosaic.PureOps.Ideal.Laws
import Idealize.ShloMosaic.Lib.ValueIdx

noncomputable section

namespace Cert.Lib.MatProd

open Idealize.ShloMosaic Idealize.ShloMosaic.ValueIdx
open scoped BigOperators

variable {M K N : ℕ} {φ₁ φ₂ : FTy}

/-- The left operand's index at result entry j and contraction coordinate t: row j₀, column t. -/
theorem plain_lhs (j : (⟨2, ![M, N]⟩ : Shape).Idx) (t : Fin K) :
    (DotDims.plain M K N).lhsIdx j ((contrEquiv1 (DotDims.plain M K N) K rfl rfl).symm t) = ix2 (j 0) t := by
  funext a; apply Fin.ext
  match a with
  | ⟨0, _⟩ => rfl
  | ⟨1, _⟩ =>
    exact ((DotDims.plain M K N).lhsIdx_val_of_single rfl j _).trans
      (contrEquiv1_symm_val (DotDims.plain M K N) K rfl rfl t)

/-- The right operand's index at result entry j and contraction coordinate t: row t, column j₁. -/
theorem plain_rhs (j : (⟨2, ![M, N]⟩ : Shape).Idx) (t : Fin K) :
    (DotDims.plain M K N).rhsIdx j ((contrEquiv1 (DotDims.plain M K N) K rfl rfl).symm t) = ix2 t (j 1) := by
  funext a; apply Fin.ext
  match a with
  | ⟨0, _⟩ =>
    exact ((DotDims.plain M K N).rhsIdx_val_of_single rfl j _).trans
      (contrEquiv1_symm_val (DotDims.plain M K N) K rfl rfl t)
  | ⟨1, _⟩ => rfl

/-- A product accumulated into the zero matrix, read at (p, q). -/
theorem matmul_zero_read (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant (F := Ideal) ⟨2, ![M, N]⟩ .f32 0x00000000#32) (ix2 p q)
      = ∑ t : Fin K, l (ix2 p t) * r (ix2 t q) := by
  refine (Ideal.matmul_constant_zero_apply (DotDims.plain M K N) prec l r (ix2 p q)).trans ?_
  rw [← Equiv.sum_comp (contrEquiv1 (DotDims.plain M K N) K rfl rfl).symm]
  exact Finset.sum_congr rfl fun t _ => by rw [plain_lhs, plain_rhs]; rfl

/-- The host's product, read at (p, q). -/
theorem dotGeneral_read (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ t : Fin K, l (ix2 p t) * r (ix2 t q) := by
  refine (Ideal.dotGeneral_apply (DotDims.plain M K N) prec sched l r (ix2 p q)).trans ?_
  rw [← Equiv.sum_comp (contrEquiv1 (DotDims.plain M K N) K rfl rfl).symm]
  exact Finset.sum_congr rfl fun t _ => by rw [plain_lhs, plain_rhs]; rfl

end Cert.Lib.MatProd

end
-- ==== Proof.LibBiasRelu.lean ====
/- A bias row added to every row of a matrix, the sum then bounded below by a scalar spread over the matrix, at
   the ideal float instance and read at an entry, in the two spellings programs give it: with the host's
   broadcasts along named axes, and with a vector unit's casts and trailing-axis broadcast inside a kernel body.
   At (i, j) both are max (A (i, j) + bias (0, j)) floor. Also: a vector turned into a one-row matrix by a cast
   and by a broadcast along axis 1 is the same matrix. All for any extents. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Lib.BiasRelu

open Idealize.ShloMosaic Idealize.ShloMosaic.ValueIdx

variable {α : Type} {a b : ℕ}

/-- A one-row matrix repeated down a rows (a broadcast keeping both axes) reads, at (i, j), the row at j. -/
theorem rowRepeat_read (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply ![0, 1] h x (ix2 i j) (ix2 (0 : Fin 1) j) fun ax => ?_
  match ax with
  | ⟨0, _⟩ => rfl
  | ⟨1, _⟩ =>
    show j.val = if b = 1 then 0 else j.val
    split
    · have := j.isLt; omega
    · rfl

/-- A scalar spread over any shape reads the scalar everywhere. -/
theorem splat_read {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun ax => ax.elim0

/-- A vector as a one-row matrix: the cast and the broadcast along axis 1 give the same matrix. -/
theorem rowOfVec_cast_eq_bcast (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  rw [shapeCast_a_1a_apply]
  refine (broadcastInDim_apply ![1] hb v (ix2 u q) (ix1 q) fun ax => ?_).symm
  match ax with
  | ⟨0, _⟩ =>
    show q.val = if b = 1 then 0 else q.val
    split
    · have := q.isLt; omega
    · rfl

variable {φ : FTy}

/-- The host's spelling, at (i, j). -/
theorem host_read (A : FVec Ideal ⟨2, ![a, b]⟩ φ) (B : FVec Ideal ⟨2, ![1, b]⟩ φ) (z : FVec Ideal ⟨0, ![]⟩ φ)
    (hB : (⟨2, ![1, b]⟩ : Shape).BroadcastsInDim ⟨2, ![a, b]⟩ ![0, 1])
    (hz : (⟨0, ![]⟩ : Shape).BroadcastsInDim ⟨2, ![a, b]⟩ (![] : Fin 0 → Fin 2)) (i : Fin a) (j : Fin b) :
    maximumf (addf A (broadcastInDim ⟨2, ![a, b]⟩ ![0, 1] hB B)) (broadcastInDim ⟨2, ![a, b]⟩ ![] hz z) (ix2 i j)
      = max (A (ix2 i j) + B (ix2 (0 : Fin 1) j)) (z ix0) := by
  rw [maximumf_apply, addf_apply, rowRepeat_read, splat_read]

/-- A kernel body's spelling, at (p, q): both operands pass through identity casts, the bias row is repeated over
    the rows by a trailing-axis broadcast, the floor is a broadcast scalar. -/
theorem body_read (x0 : FVec Ideal ⟨2, ![a, b]⟩ φ) (x1 : FVec Ideal ⟨2, ![1, b]⟩ φ) (zc : Ideal φ)
    (h0 : (⟨2, ![a, b]⟩ : Shape).ShapeCasts ⟨2, ![a, b]⟩) (h1 : (⟨2, ![1, b]⟩ : Shape).ShapeCasts ⟨2, ![1, b]⟩)
    (hb : (⟨2, ![1, b]⟩ : Shape).Broadcasts ⟨2, ![a, b]⟩) (p : Fin a) (q : Fin b) :
    maximumf (addf (shapeCast ⟨2, ![a, b]⟩ x0 h0) (broadcastTo ⟨2, ![a, b]⟩ (shapeCast ⟨2, ![1, b]⟩ x1 h1) hb))
        (broadcast ⟨2, ![a, b]⟩ zc) (ix2 p q)
      = max (x0 (ix2 p q) + x1 (ix2 (0 : Fin 1) q)) zc := by
  rw [maximumf_apply, addf_apply, shapeCast_self, shapeCast_self, broadcastTo_1b_ab_apply, broadcast_apply]

end Cert.Lib.BiasRelu

end
-- ==== Proof.LibGraphConv.lean ====
/- The dense steps of a graph-convolution layer at the ideal float instance, read at an entry, for any extents.
   A one-column matrix spread over the columns reads its column at the row, in a kernel body's trailing-axis
   broadcast and in the host's broadcast along named axes; a vector is the same one-column matrix whether cast or
   broadcast along axis 0. With these, the combine step
       max ((A (i, j) + d (i, 0) · X (i, j)) + bias (0, j)) floor
   is what both spellings compute at (i, j): the host's, over whole arrays, and a kernel body's, over a block of
   rows; and a product followed by a bias row is  Σ t, P (i, t) · W (t, j) + bias (0, j)  in both. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«127990_j25340307046788_1_alg».proof.Proof.LibMatProd
import proofs.«127990_j25340307046788_1_alg».proof.Proof.LibBiasRelu

noncomputable section

namespace Cert.Lib.GraphConv

open Idealize.ShloMosaic Idealize.ShloMosaic.ValueIdx
open scoped BigOperators

variable {α : Type} {a b k : ℕ}

/-! ### One column spread over the columns -/

/-- A one-column matrix broadcast over b columns along the trailing axis reads, at (i, j), the column at i. -/
theorem colSpread_read (x : (⟨2, ![a, 1]⟩ : Shape).Idx → α) (h : (⟨2, ![a, 1]⟩ : Shape).Broadcasts ⟨2, ![a, b]⟩)
    (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

/-- The same by the host's broadcast keeping both axes. -/
theorem colRepeat_read (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply ![0, 1] h x (ix2 i j) (ix2 i (0 : Fin 1)) fun ax => ?_
  match ax with
  | ⟨0, _⟩ =>
    show i.val = if a = 1 then 0 else i.val
    split
    · have := i.isLt; omega
    · rfl
  | ⟨1, _⟩ => rfl

/-- A vector as a one-column matrix: the cast and the broadcast along axis 0 give the same matrix. -/
theorem colOfVec_cast_eq_bcast (v : (⟨1, ![a]⟩ : Shape).Idx → α)
    (hc : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ v hc = broadcastInDim ⟨2, ![a, 1]⟩ ![0] hb v := by
  funext j
  obtain ⟨p, u, rfl⟩ : ∃ (p : Fin a) (u : Fin 1), j = ix2 p u := ⟨j 0, j 1, eq_ix2 j⟩
  have hcast : shapeCast ⟨2, ![a, 1]⟩ v hc (ix2 p u) = v (ix1 p) :=
    shapeCast_apply v hc _ _ (by
      rw [Shape.rowMajor_val_one, Shape.rowMajor_val_two]
      show p.val = p.val * 1 + u.val
      have := u.isLt; omega)
  rw [hcast]
  refine (broadcastInDim_apply ![0] hb v (ix2 p u) (ix1 p) fun ax => ?_).symm
  match ax with
  | ⟨0, _⟩ =>
    show p.val = if a = 1 then 0 else p.val
    split
    · have := p.isLt; omega
    · rfl

variable {φ : FTy}

/-! ### The combine step -/

/-- The host's spelling over whole arrays, at (i, j). -/
theorem combine_host_read (A X : FVec Ideal ⟨2, ![a, b]⟩ φ) (D : FVec Ideal ⟨2, ![a, 1]⟩ φ) (B : FVec Ideal ⟨2, ![1, b]⟩ φ)
    (z : FVec Ideal ⟨0, ![]⟩ φ)
    (hD : (⟨2, ![a, 1]⟩ : Shape).BroadcastsInDim ⟨2, ![a, b]⟩ ![0, 1])
    (hB : (⟨2, ![1, b]⟩ : Shape).BroadcastsInDim ⟨2, ![a, b]⟩ ![0, 1])
    (hz : (⟨0, ![]⟩ : Shape).BroadcastsInDim ⟨2, ![a, b]⟩ (![] : Fin 0 → Fin 2)) (i : Fin a) (j : Fin b) :
    maximumf (addf (addf A (mulf (broadcastInDim ⟨2, ![a, b]⟩ ![0, 1] hD D) X)) (broadcastInDim ⟨2, ![a, b]⟩ ![0, 1] hB B))
        (broadcastInDim ⟨2, ![a, b]⟩ ![] hz z) (ix2 i j)
      = max ((A (ix2 i j) + D (ix2 i (0 : Fin 1)) * X (ix2 i j)) + B (ix2 (0 : Fin 1) j)) (z ix0) := by
  rw [maximumf_apply, addf_apply, addf_apply, mulf_apply, colRepeat_read, Cert.Lib.BiasRelu.rowRepeat_read,
    Cert.Lib.BiasRelu.splat_read]

/-- A kernel body's spelling over a block, at (p, q): every operand passes through an identity cast, the column and
    the bias row are spread by trailing-axis broadcasts, the floor is a broadcast scalar. -/
theorem combine_body_read (x0 x1 : FVec Ideal ⟨2, ![a, b]⟩ φ) (x2 : FVec Ideal ⟨2, ![a, 1]⟩ φ) (x3 : FVec Ideal ⟨2, ![1, b]⟩ φ)
    (zc : Ideal φ)
    (h0 : (⟨2, ![a, b]⟩ : Shape).ShapeCasts ⟨2, ![a, b]⟩) (h2 : (⟨2, ![a, 1]⟩ : Shape).ShapeCasts ⟨2, ![a, 1]⟩)
    (h3 : (⟨2, ![1, b]⟩ : Shape).ShapeCasts ⟨2, ![1, b]⟩)
    (hc : (⟨2, ![a, 1]⟩ : Shape).Broadcasts ⟨2, ![a, b]⟩) (hr : (⟨2, ![1, b]⟩ : Shape).Broadcasts ⟨2, ![a, b]⟩)
    (p : Fin a) (q : Fin b) :
    maximumf (addf (addf (shapeCast ⟨2, ![a, b]⟩ x0 h0)
          (mulf (broadcastTo ⟨2, ![a, b]⟩ (shapeCast ⟨2, ![a, 1]⟩ x2 h2) hc) (shapeCast ⟨2, ![a, b]⟩ x1 h0)))
        (broadcastTo ⟨2, ![a, b]⟩ (shapeCast ⟨2, ![1, b]⟩ x3 h3) hr)) (broadcast ⟨2, ![a, b]⟩ zc) (ix2 p q)
      = max ((x0 (ix2 p q) + x2 (ix2 p (0 : Fin 1)) * x1 (ix2 p q)) + x3 (ix2 (0 : Fin 1) q)) zc := by
  rw [maximumf_apply, addf_apply, addf_apply, mulf_apply, shapeCast_self, shapeCast_self, shapeCast_self, shapeCast_self,
    colSpread_read, broadcastTo_1b_ab_apply, broadcast_apply]

/-! ### A product and a bias row -/

/-- The host's spelling, at (i, j). -/
theorem affine_host_read (prec : Option ContractPrecision) (sched : HostSchedule)
    (P : FVec Ideal ⟨2, ![a, k]⟩ φ) (W : FVec Ideal ⟨2, ![k, b]⟩ φ) (B : FVec Ideal ⟨2, ![1, b]⟩ .f32)
    (hB : (⟨2, ![1, b]⟩ : Shape).BroadcastsInDim ⟨2, ![a, b]⟩ ![0, 1]) (i : Fin a) (j : Fin b) :
    addf (FloatOps.dotGeneral (DotDims.plain a k b) prec sched P W) (broadcastInDim ⟨2, ![a, b]⟩ ![0, 1] hB B) (ix2 i j)
      = (∑ t : Fin k, P (ix2 i t) * W (ix2 t j)) + B (ix2 (0 : Fin 1) j) := by
  rw [addf_apply, Cert.Lib.MatProd.dotGeneral_read, Cert.Lib.BiasRelu.rowRepeat_read]

end Cert.Lib.GraphConv

end
-- ==== Proof.Region0.lean ====
/- Region 0: a rows-by-columns product computed 2000 rows at a time. Grid point t multiplies rows 2000·t … 2000·t + 1999 of the
   left operand by the whole right operand and writes rows 2000·t … 2000·t + 1999 of the result; the 50 blocks tile the
   100000 rows, so the result array ends at the whole product: entry (i, j) is Σ s, left (i, s) · right (s, j). -/
import proofs.«127990_j25340307046788_1_alg».proof.Proof.Gen.KernelIdeal.Frame
import proofs.«127990_j25340307046788_1_alg».proof.Proof.LibGraphConv
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The whole-array product the region computes. -/
def prod (X : FVec Ideal S100000x3 .f32) (W : FVec Ideal S3x64 .f32) : FVec Ideal S100000x64 .f32 :=
  FloatOps.dotGeneral (DotDims.plain 100000 3 64) none .single X W

/-- The index maps over the grid: the left operand and the result move down one block of rows per point, the right
    operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 50 := lt_of_lt_of_eq t.isLt N_0

/-- The left operand's block at point t is rows 2000·t … of its array. -/
theorem lhs_read (c : Dev nD) (t : Fin cfg0.N) (p : Fin 2000) (s : Fin 3) (h : t.val * 2000 + p.val < 100000) :
    (iblk0 V c 0 t : Vec Ideal S2000x3 .f32) (ix2 p s)
      = (V c main_arg0 : S100000x3.Idx → Elt Ideal .f32) (ix2 ⟨t.val * 2000 + p.val, h⟩ s) := by
  obtain ⟨e0, e1, -⟩ := idx_facts t
  unfold iblk0
  rw [View.read_apply]
  show V c main_arg0 _ = V c main_arg0 _
  refine congrArg (V c main_arg0) ?_
  funext a; apply Fin.ext
  match a with
  | ⟨0, _⟩ => show win0_0.index t (0 : Fin 2) * 2000 + 1 * p.val = t.val * 2000 + p.val; rw [e0]; omega
  | ⟨1, _⟩ => show win0_0.index t (1 : Fin 2) * 3 + 1 * s.val = s.val; rw [e1]; omega

/-- The right operand's block at every point is its whole array. -/
theorem rhs_read (c : Dev nD) (t : Fin cfg0.N) (s : Fin 3) (q : Fin 64) :
    (iblk0 V c 1 t : Vec Ideal S3x64 .f32) (ix2 s q) = (V c main_arg3 : S3x64.Idx → Elt Ideal .f32) (ix2 s q) := by
  obtain ⟨-, -, e0, e1, -⟩ := idx_facts t
  unfold iblk0
  rw [View.read_apply]
  show V c main_arg3 _ = V c main_arg3 _
  refine congrArg (V c main_arg3) ?_
  funext a; apply Fin.ext
  match a with
  | ⟨0, _⟩ => show win0_1.index t (0 : Fin 2) * 3 + 1 * s.val = s.val; rw [e0]; omega
  | ⟨1, _⟩ => show win0_1.index t (1 : Fin 2) * 64 + 1 * q.val = q.val; rw [e1]; omega

/-- Where the result's block at point t sits in its array. -/
theorem out_emb (t : Fin cfg0.N) (p : Fin 2000) (q : Fin 64) (h : t.val * 2000 + p.val < 100000) :
    ((cfg0.win 2).blk t).view.emb (ix2 p q) = (ix2 ⟨t.val * 2000 + p.val, h⟩ q : S100000x64.Idx) := by
  obtain ⟨-, -, -, -, e0, e1⟩ := idx_facts t
  funext a; apply Fin.ext
  match a with
  | ⟨0, _⟩ => show win0_2.index t (0 : Fin 2) * 2000 + 1 * p.val = t.val * 2000 + p.val; rw [e0]; omega
  | ⟨1, _⟩ => show win0_2.index t (1 : Fin 2) * 64 + 1 * q.val = q.val; rw [e1]; omega

/-- The body's result at (p, q): row p of the left block against column q of the right operand. -/
theorem body_read (x0 : Vec Ideal S2000x3 .f32) (x1 : Vec Ideal S3x64 .f32) (p : Fin 2000) (q : Fin 64) :
    (k0_pay1 x0 x1 : FVec Ideal S2000x64 .f32) (ix2 p q) = ∑ s : Fin 3, x0 (ix2 p s) * x1 (ix2 s q) :=
  Cert.Lib.MatProd.matmul_zero_read (M := 2000) (K := 3) (N := 64) none x0 x1 p q

/-- What point t writes back is block t of the whole product. -/
theorem flushed_eq (c : Dev nD) (t : Fin cfg0.N) :
    (dat0 V c).flushed 2 t = ((cfg0.win 2).blk t).view.read (Elt Ideal) (prod (V c main_arg0) (V c main_arg3)) := by
  show (cfg0.win 2).cut (grid0.coords t) ((dat0 V c).after 2 t) = _
  rw [after0_2]
  unfold out0_2
  rw [View.canon_unit_zero hz]
  simp only [View.ld_unit_zero (S := S2000x3) hz, View.ld_unit_zero (S := S3x64) hz]
  funext y
  obtain ⟨p, q, rfl⟩ : ∃ (p : Fin 2000) (q : Fin 64), y = ix2 p q := ⟨y 0, y 1, eq_ix2 y⟩
  have hr : t.val * 2000 + p.val < 100000 := by have := t_lt t; have := p.isLt; omega
  rw [View.read_apply, out_emb t p q hr]
  unfold prod
  rw [Cert.Lib.MatProd.dotGeneral_read]
  refine (body_read _ _ p q).trans (Finset.sum_congr rfl fun s _ => ?_)
  rw [lhs_read V c t p s hr, rhs_read V c t s q]

/-- An index of the result array is in point t's block iff each coordinate is in the block's range on its axis. -/
theorem mem_blk (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v27).slice (win0_2.rect t)).set ↔ _
  rw [View.set_slice_whole, Rect.mem_set_unit]
  exact Iff.rfl

/-- Every row of the result is in the block of the point that is the row divided by 2000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 2000, lt_of_lt_of_eq (by omega : (i 0).val / 2000 < 50) N_0.symm⟩
  obtain ⟨-, -, -, -, e0, e1⟩ := idx_facts t
  have e0' : win0_2.index t (0 : Fin 2) = (i 0).val / 2000 := e0
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- The result array after the region: the whole product of the operand arrays as the region finds them. -/
theorem final (c : Dev nD) : (dat0 V c).arrAt 2 cfg0.N = prod (V c main_arg0) (V c main_arg3) :=
  (dat0 V c).arrAt_eq_of_cover 2 (prod (V c main_arg0) (V c main_arg3)) (fun t _ => flushed_eq V c t) cover

end Cert.KernelIdeal.Region0

end
-- ==== Proof.Region1.lean ====
/- Region 1: the combine step of a graph-convolution layer, 2000 rows at a time. With A the aggregated neighbour
   messages, X the transformed features, d a column of self-loop weights and bias a row, grid point t computes, for
   rows 2000·t … 2000·t + 1999,  max ((A (i, j) + d (i, 0) · X (i, j)) + bias (0, j)) 0  and writes those rows of the
   result; the 50 blocks tile the 100000 rows, so the result array ends at that function of the whole arrays, in the
   host's spelling of it. -/
import proofs.«127990_j25340307046788_1_alg».proof.Proof.Gen.KernelIdeal.Frame
import proofs.«127990_j25340307046788_1_alg».proof.Proof.LibGraphConv
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer's combine step over whole arrays, in the host's spelling. -/
def layer (hD : S100000x1.BroadcastsInDim S100000x64 (![0, 1] : Fin 2 → Fin S100000x64.rank))
    (hB : S1x64.BroadcastsInDim S100000x64 (![0, 1] : Fin 2 → Fin S100000x64.rank))
    (hZ : S_.BroadcastsInDim S100000x64 (![] : Fin 0 → Fin S100000x64.rank))
    (A X : FVec Ideal S100000x64 .f32) (D : FVec Ideal S100000x1 .f32) (Bv : FVec Ideal S1x64 .f32) : FVec Ideal S100000x64 .f32 :=
  maximumf (addf (addf A (mulf (broadcastInDim S100000x64 ![0, 1] hD D) X)) (broadcastInDim S100000x64 ![0, 1] hB Bv))
    (broadcastInDim S100000x64 ![] hZ (constant (F := Ideal) S_ .f32 0x00000000#32))

/-- The index maps over the grid: the three row-blocked operands and the result move down one block of rows per
    point, the bias row stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem t_lt (t : Fin cfg1.N) : t.val < 50 := lt_of_lt_of_eq t.isLt N_1

/-- The aggregate's block at point t is rows 2000·t … of its array. -/
theorem agg_read (c : Dev nD) (t : Fin cfg1.N) (p : Fin 2000) (q : Fin 64) (h : t.val * 2000 + p.val < 100000) :
    (iblk1 V c 0 t : Vec Ideal S2000x64 .f32) (ix2 p q)
      = (V c main_v40 : S100000x64.Idx → Elt Ideal .f32) (ix2 ⟨t.val * 2000 + p.val, h⟩ q) := by
  obtain ⟨e0, e1, -⟩ := idx_facts t
  unfold iblk1
  rw [View.read_apply]
  show V c main_v40 _ = V c main_v40 _
  refine congrArg (V c main_v40) ?_
  funext a; apply Fin.ext
  match a with
  | ⟨0, _⟩ => show win1_0.index t (0 : Fin 2) * 2000 + 1 * p.val = t.val * 2000 + p.val; rw [e0]; omega
  | ⟨1, _⟩ => show win1_0.index t (1 : Fin 2) * 64 + 1 * q.val = q.val; rw [e1]; omega

/-- The features' block at point t is rows 2000·t … of their array. -/
theorem feat_read (c : Dev nD) (t : Fin cfg1.N) (p : Fin 2000) (q : Fin 64) (h : t.val * 2000 + p.val < 100000) :
    (iblk1 V c 1 t : Vec Ideal S2000x64 .f32) (ix2 p q)
      = (V c main_v27 : S100000x64.Idx → Elt Ideal .f32) (ix2 ⟨t.val * 2000 + p.val, h⟩ q) := by
  obtain ⟨-, -, e0, e1, -⟩ := idx_facts t
  unfold iblk1
  rw [View.read_apply]
  show V c main_v27 _ = V c main_v27 _
  refine congrArg (V c main_v27) ?_
  funext a; apply Fin.ext
  match a with
  | ⟨0, _⟩ => show win1_1.index t (0 : Fin 2) * 2000 + 1 * p.val = t.val * 2000 + p.val; rw [e0]; omega
  | ⟨1, _⟩ => show win1_1.index t (1 : Fin 2) * 64 + 1 * q.val = q.val; rw [e1]; omega

/-- The column's block at point t is rows 2000·t … of the column. -/
theorem col_read (c : Dev nD) (t : Fin cfg1.N) (p : Fin 2000) (q : Fin 1) (h : t.val * 2000 + p.val < 100000) :
    (iblk1 V c 2 t : Vec Ideal S2000x1 .f32) (ix2 p q)
      = (V c main_v41 : S100000x1.Idx → Elt Ideal .f32) (ix2 ⟨t.val * 2000 + p.val, h⟩ q) := by
  obtain ⟨-, -, -, -, e0, e1, -⟩ := idx_facts t
  unfold iblk1
  rw [View.read_apply]
  show V c main_v41 _ = V c main_v41 _
  refine congrArg (V c main_v41) ?_
  funext a; apply Fin.ext
  match a with
  | ⟨0, _⟩ => show win1_2.index t (0 : Fin 2) * 2000 + 1 * p.val = t.val * 2000 + p.val; rw [e0]; omega
  | ⟨1, _⟩ => show win1_2.index t (1 : Fin 2) * 1 + 1 * q.val = q.val; rw [e1]; omega

/-- The bias row's block at every point is the whole row. -/
theorem bias_read (c : Dev nD) (t : Fin cfg1.N) (p : Fin 1) (q : Fin 64) :
    (iblk1 V c 3 t : Vec Ideal S1x64 .f32) (ix2 p q)
      = (V c main_v42 : S1x64.Idx → Elt Ideal .f32) (ix2 p q) := by
  obtain ⟨-, -, -, -, -, -, e0, e1, -⟩ := idx_facts t
  unfold iblk1
  rw [View.read_apply]
  show V c main_v42 _ = V c main_v42 _
  refine congrArg (V c main_v42) ?_
  funext a; apply Fin.ext
  match a with
  | ⟨0, _⟩ => show win1_3.index t (0 : Fin 2) * 1 + 1 * p.val = p.val; rw [e0]; omega
  | ⟨1, _⟩ => show win1_3.index t (1 : Fin 2) * 64 + 1 * q.val = q.val; rw [e1]; omega

/-- Where the result's block at point t sits in its array. -/
theorem out_emb (t : Fin cfg1.N) (p : Fin 2000) (q : Fin 64) (h : t.val * 2000 + p.val < 100000) :
    ((cfg1.win 4).blk t).view.emb (ix2 p q) = (ix2 ⟨t.val * 2000 + p.val, h⟩ q : S100000x64.Idx) := by
  obtain ⟨-, -, -, -, -, -, -, -, e0, e1⟩ := idx_facts t
  funext a; apply Fin.ext
  match a with
  | ⟨0, _⟩ => show win1_4.index t (0 : Fin 2) * 2000 + 1 * p.val = t.val * 2000 + p.val; rw [e0]; omega
  | ⟨1, _⟩ => show win1_4.index t (1 : Fin 2) * 64 + 1 * q.val = q.val; rw [e1]; omega

/-- The body's result at (p, q). -/
theorem body_read (x0 x1 : Vec Ideal S2000x64 .f32) (x2 : Vec Ideal S2000x1 .f32) (x3 : Vec Ideal S1x64 .f32) (p : Fin 2000) (q : Fin 64) :
    (k1_pay1 x0 x1 x2 x3 : FVec Ideal S2000x64 .f32) (ix2 p q)
      = max ((x0 (ix2 p q) + x2 (ix2 p (0 : Fin 1)) * x1 (ix2 p q)) + x3 (ix2 (0 : Fin 1) q)) (Ideal.ofBits .f32 0x00000000#32) :=
  Cert.Lib.GraphConv.combine_body_read (a := 2000) (b := 64) x0 x1 x2 x3 _ _ _ _ _ _ p q

/-- What point t writes back is block t of the whole-array combine step. -/
theorem flushed_eq (hD hB hZ) (c : Dev nD) (t : Fin cfg1.N) :
    (dat1 V c).flushed 4 t = ((cfg1.win 4).blk t).view.read (Elt Ideal)
      (layer hD hB hZ (V c main_v40) (V c main_v27) (V c main_v41) (V c main_v42)) := by
  show (cfg1.win 4).cut (grid1.coords t) ((dat1 V c).after 4 t) = _
  rw [after1_4]
  unfold out1_4
  rw [View.canon_unit_zero hz]
  simp only [View.ld_unit_zero (S := S2000x64) hz, View.ld_unit_zero (S := S2000x1) hz, View.ld_unit_zero (S := S1x64) hz]
  funext y
  obtain ⟨p, q, rfl⟩ : ∃ (p : Fin 2000) (q : Fin 64), y = ix2 p q := ⟨y 0, y 1, eq_ix2 y⟩
  have hr : t.val * 2000 + p.val < 100000 := by have := t_lt t; have := p.isLt; omega
  rw [View.read_apply, out_emb t p q hr]
  unfold layer
  refine (body_read _ _ _ _ p q).trans ?_
  refine Eq.trans ?_ (Cert.Lib.GraphConv.combine_host_read (a := 100000) (b := 64) _ _ _ _ _ hD hB hZ _ q).symm
  rw [agg_read V c t p q hr, feat_read V c t p q hr, col_read V c t p (0 : Fin 1) hr, bias_read V c t (0 : Fin 1) q]
  rfl

/-- An index of the result array is in point t's block iff each coordinate is in the block's range on its axis. -/
theorem mem_blk (t : Fin cfg1.N) (i : S100000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v43).slice (win1_4.rect t)).set ↔ _
  rw [View.set_slice_whole, Rect.mem_set_unit]
  exact Iff.rfl

/-- Every row of the result is in the block of the point that is the row divided by 2000. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  let t : Fin cfg1.N := ⟨(i 0).val / 2000, lt_of_lt_of_eq (by omega : (i 0).val / 2000 < 50) N_1.symm⟩
  obtain ⟨-, -, -, -, -, -, -, -, e0, e1⟩ := idx_facts t
  have e0' : win1_4.index t (0 : Fin 2) = (i 0).val / 2000 := e0
  refine ⟨t, flush1_4 t, ?_⟩
  rw [mem_blk]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-- The result array after the region: the combine step of the operand arrays as the region finds them. -/
theorem final (hD hB hZ) (c : Dev nD) :
    (dat1 V c).arrAt 4 cfg1.N = layer hD hB hZ (V c main_v40) (V c main_v27) (V c main_v41) (V c main_v42) :=
  (dat1 V c).arrAt_eq_of_cover 4 _ (fun t _ => flushed_eq V hD hB hZ c t) cover

end Cert.KernelIdeal.Region1

end
-- ==== Proof.Region2.lean ====
/- Region 2: a rows-by-columns product computed 2000 rows at a time. Grid point t multiplies rows 2000·t … 2000·t + 1999 of the
   left operand by the whole right operand and writes rows 2000·t … 2000·t + 1999 of the result; the 50 blocks tile the
   100000 rows, so the result array ends at the whole product: entry (i, j) is Σ s, left (i, s) · right (s, j). -/
import proofs.«127990_j25340307046788_1_alg».proof.Proof.Gen.KernelIdeal.Frame
import proofs.«127990_j25340307046788_1_alg».proof.Proof.LibGraphConv
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The whole-array product the region computes. -/
def prod (X : FVec Ideal S100000x64 .f32) (W : FVec Ideal S64x128 .f32) : FVec Ideal S100000x128 .f32 :=
  FloatOps.dotGeneral (DotDims.plain 100000 64 128) none .single X W

/-- The index maps over the grid: the left operand and the result move down one block of rows per point, the right
    operand stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem t_lt (t : Fin cfg2.N) : t.val < 50 := lt_of_lt_of_eq t.isLt N_2

/-- The left operand's block at point t is rows 2000·t … of its array. -/
theorem lhs_read (c : Dev nD) (t : Fin cfg2.N) (p : Fin 2000) (s : Fin 64) (h : t.val * 2000 + p.val < 100000) :
    (iblk2 V c 0 t : Vec Ideal S2000x64 .f32) (ix2 p s)
      = (V c main_v43 : S100000x64.Idx → Elt Ideal .f32) (ix2 ⟨t.val * 2000 + p.val, h⟩ s) := by
  obtain ⟨e0, e1, -⟩ := idx_facts t
  unfold iblk2
  rw [View.read_apply]
  show V c main_v43 _ = V c main_v43 _
  refine congrArg (V c main_v43) ?_
  funext a; apply Fin.ext
  match a with
  | ⟨0, _⟩ => show win2_0.index t (0 : Fin 2) * 2000 + 1 * p.val = t.val * 2000 + p.val; rw [e0]; omega
  | ⟨1, _⟩ => show win2_0.index t (1 : Fin 2) * 64 + 1 * s.val = s.val; rw [e1]; omega

/-- The right operand's block at every point is its whole array. -/
theorem rhs_read (c : Dev nD) (t : Fin cfg2.N) (s : Fin 64) (q : Fin 128) :
    (iblk2 V c 1 t : Vec Ideal S64x128 .f32) (ix2 s q) = (V c main_arg5 : S64x128.Idx → Elt Ideal .f32) (ix2 s q) := by
  obtain ⟨-, -, e0, e1, -⟩ := idx_facts t
  unfold iblk2
  rw [View.read_apply]
  show V c main_arg5 _ = V c main_arg5 _
  refine congrArg (V c main_arg5) ?_
  funext a; apply Fin.ext
  match a with
  | ⟨0, _⟩ => show win2_1.index t (0 : Fin 2) * 64 + 1 * s.val = s.val; rw [e0]; omega
  | ⟨1, _⟩ => show win2_1.index t (1 : Fin 2) * 128 + 1 * q.val = q.val; rw [e1]; omega

/-- Where the result's block at point t sits in its array. -/
theorem out_emb (t : Fin cfg2.N) (p : Fin 2000) (q : Fin 128) (h : t.val * 2000 + p.val < 100000) :
    ((cfg2.win 2).blk t).view.emb (ix2 p q) = (ix2 ⟨t.val * 2000 + p.val, h⟩ q : S100000x128.Idx) := by
  obtain ⟨-, -, -, -, e0, e1⟩ := idx_facts t
  funext a; apply Fin.ext
  match a with
  | ⟨0, _⟩ => show win2_2.index t (0 : Fin 2) * 2000 + 1 * p.val = t.val * 2000 + p.val; rw [e0]; omega
  | ⟨1, _⟩ => show win2_2.index t (1 : Fin 2) * 128 + 1 * q.val = q.val; rw [e1]; omega

/-- The body's result at (p, q): row p of the left block against column q of the right operand. -/
theorem body_read (x0 : Vec Ideal S2000x64 .f32) (x1 : Vec Ideal S64x128 .f32) (p : Fin 2000) (q : Fin 128) :
    (k2_pay1 x0 x1 : FVec Ideal S2000x128 .f32) (ix2 p q) = ∑ s : Fin 64, x0 (ix2 p s) * x1 (ix2 s q) := by
    unfold k2_pay1
    simp only [shapeCast_self]
    exact Cert.Lib.MatProd.matmul_zero_read (M := 2000) (K := 64) (N := 128) none x0 x1 p q

/-- What point t writes back is block t of the whole product. -/
theorem flushed_eq (c : Dev nD) (t : Fin cfg2.N) :
    (dat2 V c).flushed 2 t = ((cfg2.win 2).blk t).view.read (Elt Ideal) (prod (V c main_v43) (V c main_arg5)) := by
  show (cfg2.win 2).cut (grid2.coords t) ((dat2 V c).after 2 t) = _
  rw [after2_2]
  unfold out2_2
  rw [View.canon_unit_zero hz]
  simp only [View.ld_unit_zero (S := S2000x64) hz, View.ld_unit_zero (S := S64x128) hz]
  funext y
  obtain ⟨p, q, rfl⟩ : ∃ (p : Fin 2000) (q : Fin 128), y = ix2 p q := ⟨y 0, y 1, eq_ix2 y⟩
  have hr : t.val * 2000 + p.val < 100000 := by have := t_lt t; have := p.isLt; omega
  rw [View.read_apply, out_emb t p q hr]
  unfold prod
  rw [Cert.Lib.MatProd.dotGeneral_read]
  refine (body_read _ _ p q).trans (Finset.sum_congr rfl fun s _ => ?_)
  rw [lhs_read V c t p s hr, rhs_read V c t s q]

/-- An index of the result array is in point t's block iff each coordinate is in the block's range on its axis. -/
theorem mem_blk (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v44).slice (win2_2.rect t)).set ↔ _
  rw [View.set_slice_whole, Rect.mem_set_unit]
  exact Iff.rfl

/-- Every row of the result is in the block of the point that is the row divided by 2000. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  let t : Fin cfg2.N := ⟨(i 0).val / 2000, lt_of_lt_of_eq (by omega : (i 0).val / 2000 < 50) N_2.symm⟩
  obtain ⟨-, -, -, -, e0, e1⟩ := idx_facts t
  have e0' : win2_2.index t (0 : Fin 2) = (i 0).val / 2000 := e0
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The result array after the region: the whole product of the operand arrays as the region finds them. -/
theorem final (c : Dev nD) : (dat2 V c).arrAt 2 cfg2.N = prod (V c main_v43) (V c main_arg5) :=
  (dat2 V c).arrAt_eq_of_cover 2 (prod (V c main_v43) (V c main_arg5)) (fun t _ => flushed_eq V c t) cover

end Cert.KernelIdeal.Region2

end
-- ==== Proof.Region3.lean ====
/- Region 3: the combine step of a graph-convolution layer, 2000 rows at a time. With A the aggregated neighbour
   messages, X the transformed features, d a column of self-loop weights and bias a row, grid point t computes, for
   rows 2000·t … 2000·t + 1999,  max ((A (i, j) + d (i, 0) · X (i, j)) + bias (0, j)) 0  and writes those rows of the
   result; the 50 blocks tile the 100000 rows, so the result array ends at that function of the whole arrays, in the
   host's spelling of it. -/
import proofs.«127990_j25340307046788_1_alg».proof.Proof.Gen.KernelIdeal.Frame
import proofs.«127990_j25340307046788_1_alg».proof.Proof.LibGraphConv
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer's combine step over whole arrays, in the host's spelling. -/
def layer (hD : S100000x1.BroadcastsInDim S100000x128 (![0, 1] : Fin 2 → Fin S100000x128.rank))
    (hB : S1x128.BroadcastsInDim S100000x128 (![0, 1] : Fin 2 → Fin S100000x128.rank))
    (hZ : S_.BroadcastsInDim S100000x128 (![] : Fin 0 → Fin S100000x128.rank))
    (A X : FVec Ideal S100000x128 .f32) (D : FVec Ideal S100000x1 .f32) (Bv : FVec Ideal S1x128 .f32) : FVec Ideal S100000x128 .f32 :=
  maximumf (addf (addf A (mulf (broadcastInDim S100000x128 ![0, 1] hD D) X)) (broadcastInDim S100000x128 ![0, 1] hB Bv))
    (broadcastInDim S100000x128 ![] hZ (constant (F := Ideal) S_ .f32 0x00000000#32))

/-- The index maps over the grid: the three row-blocked operands and the result move down one block of rows per
    point, the bias row stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

theorem t_lt (t : Fin cfg3.N) : t.val < 50 := lt_of_lt_of_eq t.isLt N_3

/-- The aggregate's block at point t is rows 2000·t … of its array. -/
theorem agg_read (c : Dev nD) (t : Fin cfg3.N) (p : Fin 2000) (q : Fin 128) (h : t.val * 2000 + p.val < 100000) :
    (iblk3 V c 0 t : Vec Ideal S2000x128 .f32) (ix2 p q)
      = (V c main_v57 : S100000x128.Idx → Elt Ideal .f32) (ix2 ⟨t.val * 2000 + p.val, h⟩ q) := by
  obtain ⟨e0, e1, -⟩ := idx_facts t
  unfold iblk3
  rw [View.read_apply]
  show V c main_v57 _ = V c main_v57 _
  refine congrArg (V c main_v57) ?_
  funext a; apply Fin.ext
  match a with
  | ⟨0, _⟩ => show win3_0.index t (0 : Fin 2) * 2000 + 1 * p.val = t.val * 2000 + p.val; rw [e0]; omega
  | ⟨1, _⟩ => show win3_0.index t (1 : Fin 2) * 128 + 1 * q.val = q.val; rw [e1]; omega

/-- The features' block at point t is rows 2000·t … of their array. -/
theorem feat_read (c : Dev nD) (t : Fin cfg3.N) (p : Fin 2000) (q : Fin 128) (h : t.val * 2000 + p.val < 100000) :
    (iblk3 V c 1 t : Vec Ideal S2000x128 .f32) (ix2 p q)
      = (V c main_v44 : S100000x128.Idx → Elt Ideal .f32) (ix2 ⟨t.val * 2000 + p.val, h⟩ q) := by
  obtain ⟨-, -, e0, e1, -⟩ := idx_facts t
  unfold iblk3
  rw [View.read_apply]
  show V c main_v44 _ = V c main_v44 _
  refine congrArg (V c main_v44) ?_
  funext a; apply Fin.ext
  match a with
  | ⟨0, _⟩ => show win3_1.index t (0 : Fin 2) * 2000 + 1 * p.val = t.val * 2000 + p.val; rw [e0]; omega
  | ⟨1, _⟩ => show win3_1.index t (1 : Fin 2) * 128 + 1 * q.val = q.val; rw [e1]; omega

/-- The column's block at point t is rows 2000·t … of the column. -/
theorem col_read (c : Dev nD) (t : Fin cfg3.N) (p : Fin 2000) (q : Fin 1) (h : t.val * 2000 + p.val < 100000) :
    (iblk3 V c 2 t : Vec Ideal S2000x1 .f32) (ix2 p q)
      = (V c main_v58 : S100000x1.Idx → Elt Ideal .f32) (ix2 ⟨t.val * 2000 + p.val, h⟩ q) := by
  obtain ⟨-, -, -, -, e0, e1, -⟩ := idx_facts t
  unfold iblk3
  rw [View.read_apply]
  show V c main_v58 _ = V c main_v58 _
  refine congrArg (V c main_v58) ?_
  funext a; apply Fin.ext
  match a with
  | ⟨0, _⟩ => show win3_2.index t (0 : Fin 2) * 2000 + 1 * p.val = t.val * 2000 + p.val; rw [e0]; omega
  | ⟨1, _⟩ => show win3_2.index t (1 : Fin 2) * 1 + 1 * q.val = q.val; rw [e1]; omega

/-- The bias row's block at every point is the whole row. -/
theorem bias_read (c : Dev nD) (t : Fin cfg3.N) (p : Fin 1) (q : Fin 128) :
    (iblk3 V c 3 t : Vec Ideal S1x128 .f32) (ix2 p q)
      = (V c main_v59 : S1x128.Idx → Elt Ideal .f32) (ix2 p q) := by
  obtain ⟨-, -, -, -, -, -, e0, e1, -⟩ := idx_facts t
  unfold iblk3
  rw [View.read_apply]
  show V c main_v59 _ = V c main_v59 _
  refine congrArg (V c main_v59) ?_
  funext a; apply Fin.ext
  match a with
  | ⟨0, _⟩ => show win3_3.index t (0 : Fin 2) * 1 + 1 * p.val = p.val; rw [e0]; omega
  | ⟨1, _⟩ => show win3_3.index t (1 : Fin 2) * 128 + 1 * q.val = q.val; rw [e1]; omega

/-- Where the result's block at point t sits in its array. -/
theorem out_emb (t : Fin cfg3.N) (p : Fin 2000) (q : Fin 128) (h : t.val * 2000 + p.val < 100000) :
    ((cfg3.win 4).blk t).view.emb (ix2 p q) = (ix2 ⟨t.val * 2000 + p.val, h⟩ q : S100000x128.Idx) := by
  obtain ⟨-, -, -, -, -, -, -, -, e0, e1⟩ := idx_facts t
  funext a; apply Fin.ext
  match a with
  | ⟨0, _⟩ => show win3_4.index t (0 : Fin 2) * 2000 + 1 * p.val = t.val * 2000 + p.val; rw [e0]; omega
  | ⟨1, _⟩ => show win3_4.index t (1 : Fin 2) * 128 + 1 * q.val = q.val; rw [e1]; omega

/-- The body's result at (p, q). -/
theorem body_read (x0 x1 : Vec Ideal S2000x128 .f32) (x2 : Vec Ideal S2000x1 .f32) (x3 : Vec Ideal S1x128 .f32) (p : Fin 2000) (q : Fin 128) :
    (k3_pay1 x0 x1 x2 x3 : FVec Ideal S2000x128 .f32) (ix2 p q)
      = max ((x0 (ix2 p q) + x2 (ix2 p (0 : Fin 1)) * x1 (ix2 p q)) + x3 (ix2 (0 : Fin 1) q)) (Ideal.ofBits .f32 0x00000000#32) :=
  Cert.Lib.GraphConv.combine_body_read (a := 2000) (b := 128) x0 x1 x2 x3 _ _ _ _ _ _ p q

/-- What point t writes back is block t of the whole-array combine step. -/
theorem flushed_eq (hD hB hZ) (c : Dev nD) (t : Fin cfg3.N) :
    (dat3 V c).flushed 4 t = ((cfg3.win 4).blk t).view.read (Elt Ideal)
      (layer hD hB hZ (V c main_v57) (V c main_v44) (V c main_v58) (V c main_v59)) := by
  show (cfg3.win 4).cut (grid3.coords t) ((dat3 V c).after 4 t) = _
  rw [after3_4]
  unfold out3_4
  rw [View.canon_unit_zero hz]
  simp only [View.ld_unit_zero (S := S2000x128) hz, View.ld_unit_zero (S := S2000x1) hz, View.ld_unit_zero (S := S1x128) hz]
  funext y
  obtain ⟨p, q, rfl⟩ : ∃ (p : Fin 2000) (q : Fin 128), y = ix2 p q := ⟨y 0, y 1, eq_ix2 y⟩
  have hr : t.val * 2000 + p.val < 100000 := by have := t_lt t; have := p.isLt; omega
  rw [View.read_apply, out_emb t p q hr]
  unfold layer
  refine (body_read _ _ _ _ p q).trans ?_
  refine Eq.trans ?_ (Cert.Lib.GraphConv.combine_host_read (a := 100000) (b := 128) _ _ _ _ _ hD hB hZ _ q).symm
  rw [agg_read V c t p q hr, feat_read V c t p q hr, col_read V c t p (0 : Fin 1) hr, bias_read V c t (0 : Fin 1) q]
  rfl

/-- An index of the result array is in point t's block iff each coordinate is in the block's range on its axis. -/
theorem mem_blk (t : Fin cfg3.N) (i : S100000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v60).slice (win3_4.rect t)).set ↔ _
  rw [View.set_slice_whole, Rect.mem_set_unit]
  exact Iff.rfl

/-- Every row of the result is in the block of the point that is the row divided by 2000. -/
theorem cover (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  let t : Fin cfg3.N := ⟨(i 0).val / 2000, lt_of_lt_of_eq (by omega : (i 0).val / 2000 < 50) N_3.symm⟩
  obtain ⟨-, -, -, -, -, -, -, -, e0, e1⟩ := idx_facts t
  have e0' : win3_4.index t (0 : Fin 2) = (i 0).val / 2000 := e0
  refine ⟨t, flush3_4 t, ?_⟩
  rw [mem_blk]
  intro a
  match a with
  | ⟨0, _⟩ => show win3_4.index t (0 : Fin 2) * 2000 ≤ (i 0).val ∧ (i 0).val < win3_4.index t (0 : Fin 2) * 2000 + 2000; omega
  | ⟨1, _⟩ => show win3_4.index t (1 : Fin 2) * 128 ≤ (i 1).val ∧ (i 1).val < win3_4.index t (1 : Fin 2) * 128 + 128; omega

/-- The result array after the region: the combine step of the operand arrays as the region finds them. -/
theorem final (hD hB hZ) (c : Dev nD) :
    (dat3 V c).arrAt 4 cfg3.N = layer hD hB hZ (V c main_v57) (V c main_v44) (V c main_v58) (V c main_v59) :=
  (dat3 V c).arrAt_eq_of_cover 4 _ (fun t _ => flushed_eq V hD hB hZ c t) cover

end Cert.KernelIdeal.Region3

end
-- ==== Proof.Region4.lean ====
/- Region 4: the final linear layer in one grid point. The body multiplies the pooled features (512 × 128) by the weights
   (128 × 2) and adds the bias row to every row; every operand's one block is its whole array, so the result array ends
   at  Σ s, P (i, s) · W (s, j) + bias (0, j), in the host's spelling of it. -/
import proofs.«127990_j25340307046788_1_alg».proof.Proof.Gen.KernelIdeal.Frame
import proofs.«127990_j25340307046788_1_alg».proof.Proof.LibGraphConv
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The product with the bias row added to every row, over whole arrays, in the host's spelling. -/
def affine (hB : S1x2.BroadcastsInDim S512x2 (![0, 1] : Fin 2 → Fin S512x2.rank))
    (Pm : FVec Ideal S512x128 .f32) (W : FVec Ideal S128x2 .f32) (Bv : FVec Ideal S1x2 .f32) : FVec Ideal S512x2 .f32 :=
  addf (FloatOps.dotGeneral (DotDims.plain 512 128 2) none .single Pm W) (broadcastInDim S512x2 ![0, 1] hB Bv)

/-- The index maps at the grid's one point: every block starts at the origin. -/
theorem idx_facts : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The pooled features' block is their whole array. -/
theorem pooled_read (c : Dev nD) (t : Fin cfg4.N) (p : Fin 512) (q : Fin 128) :
    (iblk4 V c 0 t : Vec Ideal S512x128 .f32) (ix2 p q)
      = (V c main_v72 : S512x128.Idx → Elt Ideal .f32) (ix2 p q) := by
  obtain ⟨e0, e1, -⟩ := idx_facts t
  unfold iblk4
  rw [View.read_apply]
  show V c main_v72 _ = V c main_v72 _
  refine congrArg (V c main_v72) ?_
  funext a; apply Fin.ext
  match a with
  | ⟨0, _⟩ => show win4_0.index t (0 : Fin 2) * 512 + 1 * p.val = p.val; rw [e0]; omega
  | ⟨1, _⟩ => show win4_0.index t (1 : Fin 2) * 128 + 1 * q.val = q.val; rw [e1]; omega

/-- The weights' block is their whole array. -/
theorem weight_read (c : Dev nD) (t : Fin cfg4.N) (p : Fin 128) (q : Fin 2) :
    (iblk4 V c 1 t : Vec Ideal S128x2 .f32) (ix2 p q)
      = (V c main_arg7 : S128x2.Idx → Elt Ideal .f32) (ix2 p q) := by
  obtain ⟨-, -, e0, e1, -⟩ := idx_facts t
  unfold iblk4
  rw [View.read_apply]
  show V c main_arg7 _ = V c main_arg7 _
  refine congrArg (V c main_arg7) ?_
  funext a; apply Fin.ext
  match a with
  | ⟨0, _⟩ => show win4_1.index t (0 : Fin 2) * 128 + 1 * p.val = p.val; rw [e0]; omega
  | ⟨1, _⟩ => show win4_1.index t (1 : Fin 2) * 2 + 1 * q.val = q.val; rw [e1]; omega

/-- The bias row's block is the whole row. -/
theorem bias_read (c : Dev nD) (t : Fin cfg4.N) (p : Fin 1) (q : Fin 2) :
    (iblk4 V c 2 t : Vec Ideal S1x2 .f32) (ix2 p q)
      = (V c main_v73 : S1x2.Idx → Elt Ideal .f32) (ix2 p q) := by
  obtain ⟨-, -, -, -, e0, e1, -⟩ := idx_facts t
  unfold iblk4
  rw [View.read_apply]
  show V c main_v73 _ = V c main_v73 _
  refine congrArg (V c main_v73) ?_
  funext a; apply Fin.ext
  match a with
  | ⟨0, _⟩ => show win4_2.index t (0 : Fin 2) * 1 + 1 * p.val = p.val; rw [e0]; omega
  | ⟨1, _⟩ => show win4_2.index t (1 : Fin 2) * 2 + 1 * q.val = q.val; rw [e1]; omega

/-- The result's block is its whole array. -/
theorem out_emb (t : Fin cfg4.N) (p : Fin 512) (q : Fin 2) :
    ((cfg4.win 3).blk t).view.emb (ix2 p q) = (ix2 p q : S512x2.Idx) := by
  obtain ⟨-, -, -, -, -, -, e0, e1⟩ := idx_facts t
  funext a; apply Fin.ext
  match a with
  | ⟨0, _⟩ => show win4_3.index t (0 : Fin 2) * 512 + 1 * p.val = p.val; rw [e0]; omega
  | ⟨1, _⟩ => show win4_3.index t (1 : Fin 2) * 2 + 1 * q.val = q.val; rw [e1]; omega

/-- The body's result at (p, q). -/
theorem body_read (x0 : Vec Ideal S512x128 .f32) (x1 : Vec Ideal S128x2 .f32) (x2 : Vec Ideal S1x2 .f32) (p : Fin 512) (q : Fin 2) :
    (k4_pay1 x0 x1 x2 : FVec Ideal S512x2 .f32) (ix2 p q)
      = (∑ s : Fin 128, x0 (ix2 p s) * x1 (ix2 s q)) + x2 (ix2 (0 : Fin 1) q) := by
  unfold k4_pay1
  simp only [shapeCast_self]
  rw [addf_apply, broadcastTo_1b_ab_apply]
  exact congrArg (· + x2 (ix2 (0 : Fin 1) q)) (Cert.Lib.MatProd.matmul_zero_read (M := 512) (K := 128) (N := 2) none x0 x1 p q)

/-- What the one point writes back is the whole-array function. -/
theorem flushed_eq (hB) (c : Dev nD) (t : Fin cfg4.N) :
    (dat4 V c).flushed 3 t = ((cfg4.win 3).blk t).view.read (Elt Ideal)
      (affine hB (V c main_v72) (V c main_arg7) (V c main_v73)) := by
  show (cfg4.win 3).cut (grid4.coords t) ((dat4 V c).after 3 t) = _
  rw [after4_3]
  unfold out4_3
  rw [View.canon_unit_zero hz]
  simp only [View.ld_unit_zero (S := S512x128) hz, View.ld_unit_zero (S := S128x2) hz, View.ld_unit_zero (S := S1x2) hz]
  funext y
  obtain ⟨p, q, rfl⟩ : ∃ (p : Fin 512) (q : Fin 2), y = ix2 p q := ⟨y 0, y 1, eq_ix2 y⟩
  rw [View.read_apply, out_emb t p q]
  unfold affine
  refine (body_read _ _ _ p q).trans ?_
  refine Eq.trans ?_ (Cert.Lib.GraphConv.affine_host_read (a := 512) (k := 128) (b := 2) none .single _ _ _ hB p q).symm
  rw [bias_read V c t (0 : Fin 1) q]
  refine congrArg (· + (V c main_v73 : S1x2.Idx → Elt Ideal .f32) (ix2 (0 : Fin 1) q)) (Finset.sum_congr rfl fun s _ => ?_)
  rw [pooled_read V c t p s, weight_read V c t s q]

/-- An index of the result array is in the one block iff each coordinate is in the block's range on its axis. -/
theorem mem_blk (t : Fin cfg4.N) (i : S512x2.Idx) :
    i ∈ ((cfg4.win 3).blk t).view.set ↔ ∀ a : Fin 2, win4_3.index t a * S512x2.size a ≤ (i a).val ∧ (i a).val < win4_3.index t a * S512x2.size a + S512x2.size a := by
  show i ∈ ((View.whole main_v74).slice (win4_3.rect t)).set ↔ _
  rw [View.set_slice_whole, Rect.mem_set_unit]
  exact Iff.rfl

/-- The one block is the whole result array. -/
theorem cover (i : S512x2.Idx) : ∃ t : Fin cfg4.N, (cfg4.win 3).flush t = true ∧ i ∈ ((cfg4.win 3).blk t).view.set := by
  have hi0 : (i 0).val < 512 := (i 0).isLt
  have hi1 : (i 1).val < 2 := (i 1).isLt
  obtain ⟨-, -, -, -, -, -, e0, e1⟩ := idx_facts t4_0
  refine ⟨t4_0, flush4_3 t4_0, ?_⟩
  rw [mem_blk]
  intro a
  match a with
  | ⟨0, _⟩ => show win4_3.index t4_0 (0 : Fin 2) * 512 ≤ (i 0).val ∧ (i 0).val < win4_3.index t4_0 (0 : Fin 2) * 512 + 512; omega
  | ⟨1, _⟩ => show win4_3.index t4_0 (1 : Fin 2) * 2 ≤ (i 1).val ∧ (i 1).val < win4_3.index t4_0 (1 : Fin 2) * 2 + 2; omega

/-- The result array after the region. -/
theorem final (hB) (c : Dev nD) :
    (dat4 V c).arrAt 3 cfg4.N = affine hB (V c main_v72) (V c main_arg7) (V c main_v73) :=
  (dat4 V c).arrAt_eq_of_cover 3 _ (fun t _ => flushed_eq V hB c t) cover

end Cert.KernelIdeal.Region4

end
-- ==== Proof.Chain.lean ====
/- The idealized kernel's result, boundary by boundary, as the reference's stages. The kernel program alternates stretches
   of host operations (degree normalisation, neighbour gathers and scatters, mean pooling — the same operations the
   reference applies) with five pipelined regions. Each region's result array is a whole-array function of its operand
   arrays (a product; a layer's combine step; a product plus a bias row), and that function is the reference's own
   stage: the reference spells a product as the host's dot_general, and the combine step with broadcasts along named axes
   where the kernel program reshapes a vector to a column or a row; the two spellings give the same arrays. Walking
   the boundaries from the launch to the return, every buffer a later step reads holds the reference's stage of the
   argument arrays, and the result buffer ends at the reference's result. No property of the argument values is used:
   the two programs apply the same extended-real operations in the same order. -/
import proofs.«127990_j25340307046788_1_alg».proof.Proof.Gen.KernelIdeal.Frame
import proofs.«127990_j25340307046788_1_alg».proof.Proof.Gen.ReferenceIdeal.Read
import proofs.«127990_j25340307046788_1_alg».proof.Proof.Region0
import proofs.«127990_j25340307046788_1_alg».proof.Proof.Region1
import proofs.«127990_j25340307046788_1_alg».proof.Proof.Region2
import proofs.«127990_j25340307046788_1_alg».proof.Proof.Region3
import proofs.«127990_j25340307046788_1_alg».proof.Proof.Region4
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Chain

open Cert.KernelIdeal Cert.KernelIdeal.Gen Cert.ReferenceIdeal.Read

variable (m : (ℓ : Loc nD τ sig) → Buf (Elt Ideal) ℓ) (ρ : Dev nD → PrngReg)

/-! ## What each stretch of host operations leaves alone -/

/-- The buffers the first stretch of host operations writes. -/
abbrev hostOps0_W : List (Ref sig .tc) := [main_v0, main_v1, main_v2, main_v3, main_cst, main_v4, main_cst_0, main_v5, main_v6, main_v7, main_cst_1, main_v8, main_v9, main_v10, main_v11, main_c, main_v12, main_v13, main_c_2, main_v14, main_v15, main_v16, main_v17, main_v18, main_c_3, main_v19, main_v20, main_c_4, main_v21, main_v22, main_v23, main_v24, main_v25, main_v26]
theorem hostOps0_writes : (hostOps0 : List (HloOp τ sig (Elt Ideal))).Forall fun op => op.writes ⊆ (hostOps0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; repeat' (first | apply And.intro | exact List.mem_map_of_mem (by decide)))
/-- A buffer the stretch does not write keeps its contents through it. -/
theorem keep_h0 (c : Dev nD) (r : Ref sig .tc) (h : r ∉ hostOps0_W) :
    W1 m ρ c (Proc.devRef .tc r) = W0 m ρ c (Proc.devRef .tc r) :=
  StableHlo.after_of_writes_sub hostOps0 _ hostOps0_writes h

/-- The buffers the second stretch of host operations writes. -/
abbrev hostOps1_W : List (Ref sig .tc) := [main_v28, main_c_5, main_v29, main_v30, main_c_6, main_v31, main_v32, main_v33, main_v34, main_v35, main_v36, main_v37, main_cst_7, main_v38, main_v39, main_v40, main_v41, main_v42]
theorem hostOps1_writes : (hostOps1 : List (HloOp τ sig (Elt Ideal))).Forall fun op => op.writes ⊆ (hostOps1_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; repeat' (first | apply And.intro | exact List.mem_map_of_mem (by decide)))
/-- A buffer the stretch does not write keeps its contents through it. -/
theorem keep_h1 (c : Dev nD) (r : Ref sig .tc) (h : r ∉ hostOps1_W) :
    W3 m ρ c (Proc.devRef .tc r) = W2 m ρ c (Proc.devRef .tc r) :=
  StableHlo.after_of_writes_sub hostOps1 _ hostOps1_writes h

/-- The buffers the third stretch of host operations writes. -/
abbrev hostOps3_W : List (Ref sig .tc) := [main_v45, main_c_8, main_v46, main_v47, main_c_9, main_v48, main_v49, main_v50, main_v51, main_v52, main_v53, main_v54, main_cst_10, main_v55, main_v56, main_v57, main_v58, main_v59]
theorem hostOps3_writes : (hostOps3 : List (HloOp τ sig (Elt Ideal))).Forall fun op => op.writes ⊆ (hostOps3_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; repeat' (first | apply And.intro | exact List.mem_map_of_mem (by decide)))
/-- A buffer the stretch does not write keeps its contents through it. -/
theorem keep_h3 (c : Dev nD) (r : Ref sig .tc) (h : r ∉ hostOps3_W) :
    W6 m ρ c (Proc.devRef .tc r) = W5 m ρ c (Proc.devRef .tc r) :=
  StableHlo.after_of_writes_sub hostOps3 _ hostOps3_writes h

/-- The buffers the fourth stretch of host operations writes. -/
abbrev hostOps4_W : List (Ref sig .tc) := [main_cst_11, main_v61, main_v62, main_v63, main_cst_12, main_v64, main_cst_13, main_v65, main_v66, main_v67, main_cst_14, main_v68, main_v69, main_v70, main_v71, main_v72, main_v73]
theorem hostOps4_writes : (hostOps4 : List (HloOp τ sig (Elt Ideal))).Forall fun op => op.writes ⊆ (hostOps4_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; repeat' (first | apply And.intro | exact List.mem_map_of_mem (by decide)))
/-- A buffer the stretch does not write keeps its contents through it. -/
theorem keep_h4 (c : Dev nD) (r : Ref sig .tc) (h : r ∉ hostOps4_W) :
    W8 m ρ c (Proc.devRef .tc r) = W7 m ρ c (Proc.devRef .tc r) :=
  StableHlo.after_of_writes_sub hostOps4 _ hostOps4_writes h

/-! ## The arguments, where they are read -/

theorem w1_arg0 (c : Dev nD) : W1 m ρ c (Proc.devRef .tc main_arg0) = (m ((c : Thread nD τ).loc main_arg0)) :=
  (keep_h0 m ρ c main_arg0 (by decide))

theorem w1_arg3 (c : Dev nD) : W1 m ρ c (Proc.devRef .tc main_arg3) = (m ((c : Thread nD τ).loc main_arg3)) :=
  (keep_h0 m ρ c main_arg3 (by decide))

theorem w2_arg4 (c : Dev nD) : W2 m ρ c (Proc.devRef .tc main_arg4) = (m ((c : Thread nD τ).loc main_arg4)) :=
  ((W2_of_ne m ρ c main_arg4 (by decide)).trans (keep_h0 m ρ c main_arg4 (by decide)))

theorem w4_arg5 (c : Dev nD) : W4 m ρ c (Proc.devRef .tc main_arg5) = (m ((c : Thread nD τ).loc main_arg5)) :=
  ((W4_of_ne m ρ c main_arg5 (by decide)).trans ((keep_h1 m ρ c main_arg5 (by decide)).trans ((W2_of_ne m ρ c main_arg5 (by decide)).trans (keep_h0 m ρ c main_arg5 (by decide)))))

theorem w5_arg6 (c : Dev nD) : W5 m ρ c (Proc.devRef .tc main_arg6) = (m ((c : Thread nD τ).loc main_arg6)) :=
  ((W5_of_ne m ρ c main_arg6 (by decide)).trans ((W4_of_ne m ρ c main_arg6 (by decide)).trans ((keep_h1 m ρ c main_arg6 (by decide)).trans ((W2_of_ne m ρ c main_arg6 (by decide)).trans (keep_h0 m ρ c main_arg6 (by decide))))))

theorem w7_arg2 (c : Dev nD) : W7 m ρ c (Proc.devRef .tc main_arg2) = (m ((c : Thread nD τ).loc main_arg2)) :=
  ((W7_of_ne m ρ c main_arg2 (by decide)).trans ((keep_h3 m ρ c main_arg2 (by decide)).trans ((W5_of_ne m ρ c main_arg2 (by decide)).trans ((W4_of_ne m ρ c main_arg2 (by decide)).trans ((keep_h1 m ρ c main_arg2 (by decide)).trans ((W2_of_ne m ρ c main_arg2 (by decide)).trans (keep_h0 m ρ c main_arg2 (by decide))))))))

theorem w7_arg8 (c : Dev nD) : W7 m ρ c (Proc.devRef .tc main_arg8) = (m ((c : Thread nD τ).loc main_arg8)) :=
  ((W7_of_ne m ρ c main_arg8 (by decide)).trans ((keep_h3 m ρ c main_arg8 (by decide)).trans ((W5_of_ne m ρ c main_arg8 (by decide)).trans ((W4_of_ne m ρ c main_arg8 (by decide)).trans ((keep_h1 m ρ c main_arg8 (by decide)).trans ((W2_of_ne m ρ c main_arg8 (by decide)).trans (keep_h0 m ρ c main_arg8 (by decide))))))))

theorem w8_arg7 (c : Dev nD) : W8 m ρ c (Proc.devRef .tc main_arg7) = (m ((c : Thread nD τ).loc main_arg7)) :=
  ((keep_h4 m ρ c main_arg7 (by decide)).trans ((W7_of_ne m ρ c main_arg7 (by decide)).trans ((keep_h3 m ρ c main_arg7 (by decide)).trans ((W5_of_ne m ρ c main_arg7 (by decide)).trans ((W4_of_ne m ρ c main_arg7 (by decide)).trans ((keep_h1 m ρ c main_arg7 (by decide)).trans ((W2_of_ne m ρ c main_arg7 (by decide)).trans (keep_h0 m ρ c main_arg7 (by decide)))))))))

/-! ## Before the first product: the edge lists, the degree normalisation, the per-edge weights -/

/-- The per-edge weights dinv[src] · dinv[dst]. -/
theorem w1_norm (c : Dev nD) : W1 m ρ c (Proc.devRef .tc main_v26) = val_main_v26 (F := Ideal) (m ((c : Thread nD τ).loc main_arg1)) := by
  show StableHlo.after hostOps0 (W0 m ρ c) (Proc.devRef .tc main_v26) = _
  after_results_simp <;> rfl

/-- The self-loop weights dinv · dinv. -/
theorem w1_selfw (c : Dev nD) : W1 m ρ c (Proc.devRef .tc main_v11) = val_main_v40 (F := Ideal) (m ((c : Thread nD τ).loc main_arg1)) := by
  show StableHlo.after hostOps0 (W0 m ρ c) (Proc.devRef .tc main_v11) = _
  after_results_simp <;> rfl

/-- The edges' sources. -/
theorem w1_src (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp <;> rfl

/-- The edges' targets. -/
theorem w1_dst (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp <;> rfl

/-! ## The first layer -/

/-- The product x · W1. -/
theorem w2_xw (c : Dev nD) : W2 m ρ c (Proc.devRef .tc main_v27) = val_main_v11 (F := Ideal) (m ((c : Thread nD τ).loc main_arg0)) (m ((c : Thread nD τ).loc main_arg3)) := by
  refine (W2_arr m ρ c 2).trans ((Cert.KernelIdeal.Region0.final (V1 m ρ) c).trans ?_)
  show Cert.KernelIdeal.Region0.prod (W1 m ρ c (Proc.devRef .tc main_arg0)) (W1 m ρ c (Proc.devRef .tc main_arg3)) = _
  rw [w1_arg0, w1_arg3]
  rfl

/-- The aggregated neighbour messages. -/
theorem w3_agg (c : Dev nD) : W3 m ρ c (Proc.devRef .tc main_v40) = val_main_v39 (F := Ideal) (m ((c : Thread nD τ).loc main_arg0)) (m ((c : Thread nD τ).loc main_arg1)) (m ((c : Thread nD τ).loc main_arg3)) := by
  show StableHlo.after hostOps1 (W2 m ρ c) (Proc.devRef .tc main_v40) = _
  after_results_simp
  rw [w2_xw, ((W2_of_ne m ρ c main_v26 (by decide)).trans (w1_norm m ρ c)), ((W2_of_ne m ρ c main_v1 (by decide)).trans (w1_src m ρ c)), ((W2_of_ne m ρ c main_v3 (by decide)).trans (w1_dst m ρ c))]
  rfl

/-- The product, still there after the stretch. -/
theorem w3_xw (c : Dev nD) : W3 m ρ c (Proc.devRef .tc main_v27) = val_main_v11 (F := Ideal) (m ((c : Thread nD τ).loc main_arg0)) (m ((c : Thread nD τ).loc main_arg3)) :=
  (keep_h1 m ρ c main_v27 (by decide)).trans (w2_xw m ρ c)

/-- The self-loop weights as a column: the kernel program reshapes the vector, the reference broadcasts it along axis 0. -/
theorem w3_col (c : Dev nD) : W3 m ρ c (Proc.devRef .tc main_v41) = val_main_v41 (F := Ideal) (m ((c : Thread nD τ).loc main_arg1)) := by
  show StableHlo.after hostOps1 (W2 m ρ c) (Proc.devRef .tc main_v41) = _
  after_results_simp
  rw [((W2_of_ne m ρ c main_v11 (by decide)).trans (w1_selfw m ρ c))]
  exact Cert.Lib.GraphConv.colOfVec_cast_eq_bcast _ _ _

/-- The first bias as a row: reshaped in the kernel program, broadcast along axis 1 in the reference. -/
theorem w3_row (c : Dev nD) : W3 m ρ c (Proc.devRef .tc main_v42) = val_main_v45 (F := Ideal) (m ((c : Thread nD τ).loc main_arg4)) := by
  show StableHlo.after hostOps1 (W2 m ρ c) (Proc.devRef .tc main_v42) = _
  after_results_simp
  rw [w2_arg4]
  exact Cert.Lib.BiasRelu.rowOfVec_cast_eq_bcast _ _ _

/-- The first layer's output max ((agg + dinv² · xw) + b1, 0). -/
theorem w4_h1 (c : Dev nD) : W4 m ρ c (Proc.devRef .tc main_v43) = val_main_v48 (F := Ideal) (m ((c : Thread nD τ).loc main_arg0)) (m ((c : Thread nD τ).loc main_arg1)) (m ((c : Thread nD τ).loc main_arg3)) (m ((c : Thread nD τ).loc main_arg4)) := by
  refine (W4_arr m ρ c 4).trans ((Cert.KernelIdeal.Region1.final (V3 m ρ) Cert.ReferenceIdeal.Facts₀.bcast_S100000x1_S100000x64_0_1
    Cert.ReferenceIdeal.Facts₀.bcast_S1x64_S100000x64_0_1 Cert.ReferenceIdeal.Facts₀.bcast_S_S100000x64 c).trans ?_)
  show Cert.KernelIdeal.Region1.layer _ _ _ (W3 m ρ c (Proc.devRef .tc main_v40)) (W3 m ρ c (Proc.devRef .tc main_v27))
    (W3 m ρ c (Proc.devRef .tc main_v41)) (W3 m ρ c (Proc.devRef .tc main_v42)) = _
  rw [w3_agg, w3_xw, w3_col, w3_row]
  rfl

/-! ## The second layer -/

/-- The product h1 · W2. -/
theorem w5_xw (c : Dev nD) : W5 m ρ c (Proc.devRef .tc main_v44) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((Cert.KernelIdeal.Region2.final (V4 m ρ) c).trans ?_)
  show Cert.KernelIdeal.Region2.prod (W4 m ρ c (Proc.devRef .tc main_v43)) (W4 m ρ c (Proc.devRef .tc main_arg5)) = _
  rw [w4_h1, w4_arg5]
  rfl

/-- The aggregated neighbour messages; the per-edge weights are the first layer's, which the reference computes again. -/
theorem w6_agg (c : Dev nD) : W6 m ρ c (Proc.devRef .tc main_v57) = val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W5 m ρ c) (Proc.devRef .tc main_v57) = _
  after_results_simp
  rw [w5_xw, ((W5_of_ne m ρ c main_v26 (by decide)).trans ((W4_of_ne m ρ c main_v26 (by decide)).trans ((keep_h1 m ρ c main_v26 (by decide)).trans ((W2_of_ne m ρ c main_v26 (by decide)).trans (w1_norm m ρ c))))), ((W5_of_ne m ρ c main_v1 (by decide)).trans ((W4_of_ne m ρ c main_v1 (by decide)).trans ((keep_h1 m ρ c main_v1 (by decide)).trans ((W2_of_ne m ρ c main_v1 (by decide)).trans (w1_src m ρ c))))), ((W5_of_ne m ρ c main_v3 (by decide)).trans ((W4_of_ne m ρ c main_v3 (by decide)).trans ((keep_h1 m ρ c main_v3 (by decide)).trans ((W2_of_ne m ρ c main_v3 (by decide)).trans (w1_dst m ρ c)))))]
  rfl

theorem w6_xw (c : Dev nD) : W6 m ρ c (Proc.devRef .tc main_v44) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (keep_h3 m ρ c main_v44 (by decide)).trans (w5_xw m ρ c)

theorem w6_col (c : Dev nD) : W6 m ρ c (Proc.devRef .tc main_v58) = val_main_v79 (F := Ideal) (m ((c : Thread nD τ).loc main_arg1)) := by
  show StableHlo.after hostOps3 (W5 m ρ c) (Proc.devRef .tc main_v58) = _
  after_results_simp
  rw [((W5_of_ne m ρ c main_v11 (by decide)).trans ((W4_of_ne m ρ c main_v11 (by decide)).trans ((keep_h1 m ρ c main_v11 (by decide)).trans ((W2_of_ne m ρ c main_v11 (by decide)).trans (w1_selfw m ρ c)))))]
  exact Cert.Lib.GraphConv.colOfVec_cast_eq_bcast _ _ _

theorem w6_row (c : Dev nD) : W6 m ρ c (Proc.devRef .tc main_v59) = val_main_v83 (F := Ideal) (m ((c : Thread nD τ).loc main_arg6)) := by
  show StableHlo.after hostOps3 (W5 m ρ c) (Proc.devRef .tc main_v59) = _
  after_results_simp
  rw [w5_arg6]
  exact Cert.Lib.BiasRelu.rowOfVec_cast_eq_bcast _ _ _

/-- The second layer's output. -/
theorem w7_h2 (c : Dev nD) : W7 m ρ c (Proc.devRef .tc main_v60) = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 4).trans ((Cert.KernelIdeal.Region3.final (V6 m ρ) Cert.ReferenceIdeal.Facts₀.bcast_S100000x1_S100000x128_0_1
    Cert.ReferenceIdeal.Facts₀.bcast_S1x128_S100000x128_0_1 Cert.ReferenceIdeal.Facts₀.bcast_S_S100000x128 c).trans ?_)
  show Cert.KernelIdeal.Region3.layer _ _ _ (W6 m ρ c (Proc.devRef .tc main_v57)) (W6 m ρ c (Proc.devRef .tc main_v44))
    (W6 m ρ c (Proc.devRef .tc main_v58)) (W6 m ρ c (Proc.devRef .tc main_v59)) = _
  rw [w6_agg, w6_xw, w6_col, w6_row]
  rfl

/-! ## Mean pooling and the final linear layer -/

/-- The pooled features: per-graph sums over per-graph counts bounded below by one. -/
theorem w8_pooled (c : Dev nD) : W8 m ρ c (Proc.devRef .tc main_v72) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps4 (W7 m ρ c) (Proc.devRef .tc main_v72) = _
  after_results_simp
  rw [w7_h2, w7_arg2]
  rfl

theorem w8_row (c : Dev nD) : W8 m ρ c (Proc.devRef .tc main_v73) = val_main_v100 (F := Ideal) (m ((c : Thread nD τ).loc main_arg8)) := by
  show StableHlo.after hostOps4 (W7 m ρ c) (Proc.devRef .tc main_v73) = _
  after_results_simp
  rw [w7_arg8]
  exact Cert.Lib.BiasRelu.rowOfVec_cast_eq_bcast _ _ _

/-- THE RESULT: the kernel program's result buffer ends at the reference's result of the argument arrays. -/
theorem result (c : Dev nD) : W9 m ρ c (Proc.devRef .tc main_v74)
    = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 3).trans ((Cert.KernelIdeal.Region4.final (V8 m ρ) Cert.ReferenceIdeal.Facts₀.bcast_S1x2_S512x2_0_1 c).trans ?_)
  show Cert.KernelIdeal.Region4.affine _ (W8 m ρ c (Proc.devRef .tc main_v72)) (W8 m ρ c (Proc.devRef .tc main_arg7)) (W8 m ρ c (Proc.devRef .tc main_v73)) = _
  rw [w8_pooled, w8_arg7, w8_row]
  rfl

end Cert.KernelIdeal.Chain

end
-- ==== Proof.lean ====
/- A two-layer graph convolution with mean pooling and a final linear layer, computed by a kernel program of five
   pipelined regions among host operations, against a plain host reference, over the extended reals.
   Each layer is  h' = max ((Σ_edges norm · (h W)[src] scattered to dst + dinv² · (h W)) + b, 0)  with norm and dinv from
   the degree counts; the pooled features are per-graph sums over per-graph counts bounded below by one; the result is
   pooled · Wfc + bfc. The kernel program computes the three products and the two combine steps in regions (blocks of
   2000 rows; one block for the last product) and everything else with the reference's own host operations.
   The frames of the two kernel programs are the generated ones; the reference's frame is its generated run with the
   result dropped; the idealization rewrote nothing. For the value claim the kernel program's run is read with its
   result named (KernelRun), each region's result array is shown to be the reference's stage of the region's operand
   arrays (Region0 … Region4 over LibGraphConv), and the boundaries are walked from the launch to the return (Chain): the
   result buffer ends at the reference's result term of the argument arrays, the same term the reference's generated
   run ends at. -/
import proofs.«127990_j25340307046788_1_alg».proof.Defs
import proofs.«127990_j25340307046788_1_alg».proof.Proof.Gen.Kernel
import proofs.«127990_j25340307046788_1_alg».proof.Proof.Gen.Kernel.Skeleton
import proofs.«127990_j25340307046788_1_alg».proof.Proof.Gen.Kernel.Launch
import proofs.«127990_j25340307046788_1_alg».proof.Proof.Gen.Kernel.Points
import proofs.«127990_j25340307046788_1_alg».proof.Proof.Gen.Kernel.Frame
import proofs.«127990_j25340307046788_1_alg».proof.Proof.Gen.KernelIdeal
import proofs.«127990_j25340307046788_1_alg».proof.Proof.Gen.KernelIdeal.Skeleton
import proofs.«127990_j25340307046788_1_alg».proof.Proof.Gen.KernelIdeal.Launch
import proofs.«127990_j25340307046788_1_alg».proof.Proof.Gen.KernelIdeal.Points
import proofs.«127990_j25340307046788_1_alg».proof.Proof.Gen.KernelIdeal.Frame
import proofs.«127990_j25340307046788_1_alg».proof.Proof.Gen.ReferenceIdeal
import proofs.«127990_j25340307046788_1_alg».proof.Proof.Gen.ReferenceIdeal.Run
import proofs.«127990_j25340307046788_1_alg».proof.Proof.Gen.ReferenceIdeal.Read
import proofs.«127990_j25340307046788_1_alg».proof.Proof.Gen.Pre_finite_inputs
import proofs.«127990_j25340307046788_1_alg».proof.Proof.KernelRun
import proofs.«127990_j25340307046788_1_alg».proof.Proof.Chain
import Idealize.ShloMosaic.Adequacy
import Idealize.ShloMosaic.Init

noncomputable section

namespace Cert.Proof

open Idealize.ShloMosaic Idealize.SL.Sem

/-- The three frames: the kernel programs' generated frame certificates; the reference's generated run, result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the reference's result term of the (agreeing) argument arrays. -/
theorem algebraic : Cert.algebraic_KernelIdeal_ReferenceIdeal := by
  intro m ρ m' ρ' _ hagree
  refine ⟨fun c => Cert.ReferenceIdeal.Read.val_main_v102 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result m ρ c), (h c).2⟩)
      (Cert.KernelIdeal.RunValue.run_main (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8⟩ := hagree c
    rw [(h c).1, Cert.ReferenceIdeal.Read.val_main_v102_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
